-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S_ : Shape := ⟨0, ![]⟩
abbrev S50000 : Shape := ⟨1, ![50000]⟩
abbrev S1x600000 : Shape := ⟨2, ![1, 600000]⟩
abbrev S650000 : Shape := ⟨1, ![650000]⟩
abbrev S650000x1 : Shape := ⟨2, ![650000, 1]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  bcast_S_S50000 : S_.BroadcastsInDim S50000 (![] : Fin 0 → Fin S50000.rank)
  bcast_S650000_S650000x1_0 : S650000.BroadcastsInDim S650000x1 (![0] : Fin 1 → Fin S650000x1.rank)
  reducesTo_S50000_S_d0 : S50000.ReducesTo [0] S_
  scatter_S50000_S650000x1_S650000_n_0_0_1_wf : ScatterDims.WF S50000 S650000x1 S650000 [] [0] [0] 1

variable [Facts]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def fn_part1 {F : FTy → Type} [FloatOps F] (main_arg1 : IVec S2x600000 32) (main_arg2 : FVec F S600000 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : IVec S50000 32 := iotaInDim S50000 32 0
  let main_v20 : IVec S1x600000 32 := (extractStridedSlice S1x600000 ![0, 0] · slices_S2x600000_S1x600000_0_0) main_arg1
  let main_v21 : IVec S600000 32 := shapeCast S600000 main_v20 shapeCasts_S1x600000_S600000
  let main_v22 : IVec S650000 32 := (fun a b => concatenate S650000 0 [⟨S600000, a⟩, ⟨S50000, b⟩] concatenates_S600000_S50000_S650000_d0) main_v21 main_v19
  let main_cst_6 : FVec F S_ .f32 := constant S_ .f32 0x3F800000#32
  let main_v23 : FVec F S50000 .f32 := broadcastInDim S50000 ![] bcast_S_S50000 main_cst_6
  let main_v24 : FVec F S650000 .f32 := (fun a b => concatenate S650000 0 [⟨S600000, a⟩, ⟨S50000, b⟩] concatenates_S600000_S50000_S650000_d0) main_arg2 main_v23
  let main_cst_7 : FVec F S_ .f32 := constant S_ .f32 0x00000000#32
  let main_v25 : FVec F S50000 .f32 := broadcastInDim S50000 ![] bcast_S_S50000 main_cst_7
  let main_v26 : IVec S650000x1 32 := broadcastInDim S650000x1 ![0] bcast_S650000_S650000x1_0 main_v22
  let main_v27 : FVec F S50000 .f32 := (fun x i u => Host.scatterAdd scatter_S50000_S650000x1_S650000_n_0_0_1 x i u) main_v25 main_v26 main_v24
  let main_cst_8 : FVec F S_ .f32 := constant S_ .f32 0x00000000#32
  let main_v28 : FVec F S50000 .f32 := broadcastInDim S50000 ![] bcast_S_S50000 main_cst_8
  let main_v29 : IVec S50000 1 := cmpf .ogt main_v27 main_v28
  let main_c_9 : IVec S_ 1 := constantI S_ 1 1#1
  let main_v30 : IVec S_ 1 := (fun x v => Host.reduce IntOp.andi x v reducesTo_S50000_S_d0 h_S_) main_v29 main_c_9
  let main_v31 : IVec S_ 1 := andi main_v18 main_v30
  main_v31

def fn {F : FTy → Type} [FloatOps F] (main_arg0 : FVec F S50000x128 .f32) (main_arg1 : IVec S2x600000 32) (main_arg2 : FVec F S600000 .f32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000 .f32 := Host.absf main_arg2
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 59
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .i32⟩
  | .hbm, ⟨31, _⟩ => ⟨S650000, .i32⟩
  | .hbm, ⟨32, _⟩ => ⟨S650000, .i1⟩
  | .hbm, ⟨33, _⟩ => ⟨S_, .i32⟩
  | .hbm, ⟨34, _⟩ => ⟨S650000, .i32⟩
  | .hbm, ⟨35, _⟩ => ⟨S650000, .i32⟩
  | .hbm, ⟨36, _⟩ => ⟨S650000, .i32⟩
  | .hbm, ⟨37, _⟩ => ⟨S650000x1, .i32⟩
  | .hbm, ⟨38, _⟩ => ⟨S650000, .f32⟩
  | .hbm, ⟨39, _⟩ => ⟨S650000, .f32⟩
  | .hbm, ⟨40, _⟩ => ⟨S_, .i32⟩
  | .hbm, ⟨41, _⟩ => ⟨S650000, .i32⟩
  | .hbm, ⟨42, _⟩ => ⟨S650000, .i1⟩
  | .hbm, ⟨43, _⟩ => ⟨S_, .i32⟩
  | .hbm, ⟨44, _⟩ => ⟨S650000, .i32⟩
  | .hbm, ⟨45, _⟩ => ⟨S650000, .i32⟩
  | .hbm, ⟨46, _⟩ => ⟨S650000, .i32⟩
  | .hbm, ⟨47, _⟩ => ⟨S650000x1, .i32⟩
  | .hbm, ⟨48, _⟩ => ⟨S650000x128, .f32⟩
  | .hbm, ⟨49, _⟩ => ⟨S650000x1, .f32⟩
  | .hbm, ⟨50, _⟩ => ⟨S650000x128, .f32⟩
  | .hbm, ⟨51, _⟩ => ⟨S650000x128, .f32⟩
  | .hbm, ⟨52, _⟩ => ⟨S_, .f32⟩
  | .hbm, ⟨53, _⟩ => ⟨S50000x128, .f32⟩
  | .hbm, ⟨54, _⟩ => ⟨S650000x1, .i32⟩
  | .hbm, ⟨55, _⟩ => ⟨S50000x128, .f32⟩
  | .hbm, ⟨56, _⟩ => ⟨S128x128, .f32⟩
  | .hbm, ⟨57, _⟩ => ⟨S50000x1, .f32⟩
  | .hbm, ⟨58, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  bcast_S50000_S50000x1_0 : S50000.BroadcastsInDim S50000x1 (![0] : Fin 1 → Fin S50000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v38) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S128x128 : Shape := ⟨2, ![128, 128]⟩
abbrev S128 : Shape := ⟨1, ![128]⟩
abbrev S50000 : Shape := ⟨1, ![50000]⟩
abbrev S1x600000 : Shape := ⟨2, ![1, 600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000, .f32⟩
  | .hbm, ⟨3, _⟩ => ⟨S128x128, .f32⟩
  | .hbm, ⟨4, _⟩ => ⟨S128, .f32⟩
  | .hbm, ⟨5, _⟩ => ⟨S50000, .i32⟩
  | .hbm, ⟨6, _⟩ => ⟨S1x600000, .i32⟩
  | .hbm, ⟨7, _⟩ => ⟨S600000, .i32⟩
  | .hbm, ⟨8, _⟩ => ⟨S650000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S_, .f32⟩
  | .hbm, ⟨13, _⟩ => ⟨S50000, .f32⟩
  | .hbm, ⟨14, _⟩ => ⟨S650000, .f32⟩
  | .hbm, ⟨15, _⟩ => ⟨S_, .f32⟩
  | .hbm, ⟨16, _⟩ => ⟨S50000, .f32⟩
  | .hbm, ⟨17, _⟩ => ⟨S650000x1, .i32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S650000, .i32⟩
  | .hbm, ⟨25, _⟩ => ⟨S650000, .i1⟩
  | .hbm, ⟨26, _⟩ => ⟨S_, .i32⟩
  | .hbm, ⟨27, _⟩ => ⟨S650000, .i32⟩
  | .hbm, ⟨28, _⟩ => ⟨S650000, .i32⟩
  | .hbm, ⟨29, _⟩ => ⟨S650000, .i32⟩
  | .hbm, ⟨30, _⟩ => ⟨S650000x1, .i32⟩
  | .hbm, ⟨31, _⟩ => ⟨S650000, .f32⟩
  | .hbm, ⟨32, _⟩ => ⟨S650000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S650000, .f32⟩
  | .hbm, ⟨43, _⟩ => ⟨S_, .i32⟩
  | .hbm, ⟨44, _⟩ => ⟨S650000, .i32⟩
  | .hbm, ⟨45, _⟩ => ⟨S650000, .i1⟩
  | .hbm, ⟨46, _⟩ => ⟨S_, .i32⟩
  | .hbm, ⟨47, _⟩ => ⟨S650000, .i32⟩
  | .hbm, ⟨48, _⟩ => ⟨S650000, .i32⟩
  | .hbm, ⟨49, _⟩ => ⟨S650000, .i32⟩
  | .hbm, ⟨50, _⟩ => ⟨S650000x1, .i32⟩
  | .hbm, ⟨51, _⟩ => ⟨S650000x128, .f32⟩
  | .hbm, ⟨52, _⟩ => ⟨S650000x1, .f32⟩
  | .hbm, ⟨53, _⟩ => ⟨S650000x128, .f32⟩
  | .hbm, ⟨54, _⟩ => ⟨S650000x128, .f32⟩
  | .hbm, ⟨55, _⟩ => ⟨S_, .f32⟩
  | .hbm, ⟨56, _⟩ => ⟨S50000x128, .f32⟩
  | .hbm, ⟨57, _⟩ => ⟨S650000x1, .i32⟩
  | .hbm, ⟨58, _⟩ => ⟨S50000x128, .f32⟩
  | .hbm, ⟨59, _⟩ => ⟨S128x128, .f32⟩
  | .hbm, ⟨60, _⟩ => ⟨S50000x128, .f32⟩
  | .hbm, ⟨61, _⟩ => ⟨S1x128, .f32⟩
  | .hbm, ⟨62, _⟩ => ⟨S50000x128, .f32⟩
  | .hbm, ⟨63, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_5 : Ref sig .tc := ⟨.hbm, 43, rfl⟩
abbrev main_v31 : Ref sig .tc := ⟨.hbm, 44, rfl⟩
abbrev main_v32 : Ref sig .tc := ⟨.hbm, 45, rfl⟩
abbrev main_c_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  bcast_S_S50000 : S_.BroadcastsInDim S50000 (![] : Fin 0 → Fin S50000.rank)
  bcast_S650000_S650000x1_0 : S650000.BroadcastsInDim S650000x1 (![0] : Fin 1 → Fin S650000x1.rank)
  bcast_S_S650000 : S_.BroadcastsInDim S650000 (![] : Fin 0 → Fin S650000.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibMatrixRows.lean ====
/-
  Plain matrix products at the extended reals, and blocks of rows.

  A float at the ideal instance is an extended real, and both a kernel's matrix unit (into a zero accumulator) and the
  host's `dot_general` with the dimension numbers `[1] x [0]` compute, at an entry `(p, q)`, the sum over `k` of
  `L (p, k) * R (k, q)`. This file names that product (`mmul`), identifies both operations with it as whole functions,
  names the two ways a bias row is spread over the rows of a matrix, and proves the facts a row-blocked kernel needs:

  * `rows off h G` is the block of `M` consecutive rows of `G` starting at row `off`; a product's block of rows is the
    product of the left factor's block of rows with the WHOLE right factor (`rows_mmul`), and the row-wise operations
    (adding a bias row, `tanh`) commute with taking a block of rows;
  * when every entry of three matrices is a real number, their product is associative (`mmul_assoc`): on the extended
    reals distributivity fails at the infinities, so the hypothesis is needed.
-/
import Idealize.ShloMosaic.PureOps.Ideal.Laws
import Idealize.ShloMosaic.Lib.ValueIdx
import Idealize.ShloMosaic.Lib.Pipeline.Value

noncomputable section

open scoped BigOperators

namespace Cert.MatrixRows

open Idealize.ShloMosaic Idealize.ShloMosaic.ValueIdx

/-- An `M × N` matrix of extended reals, indexed as an array of shape `[M, N]`. -/
abbrev Mat (M N : Nat) : Type := (⟨2, ![M, N]⟩ : Shape).Idx → EReal

/-- The row coordinate of an index, typed by the literal extent. -/
abbrev row {M N : Nat} (i : (⟨2, ![M, N]⟩ : Shape).Idx) : Fin M := ⟨(i 0).val, idx2_lt0 i⟩
/-- The column coordinate of an index, typed by the literal extent. -/
abbrev col {M N : Nat} (i : (⟨2, ![M, N]⟩ : Shape).Idx) : Fin N := ⟨(i 1).val, idx2_lt1 i⟩

/-- The product of an `M × K` and a `K × N` matrix: entry `(p, q)` is `∑ k, L (p, k) * R (k, q)`. -/
def mmul {M K N : Nat} (L : Mat M K) (R : Mat K N) : Mat M N :=
  fun i => ∑ k : Fin K, L (ix2 (row i) k) * R (ix2 k (col i))

theorem mmul_apply {M K N : Nat} (L : Mat M K) (R : Mat K N) (p : Fin M) (q : Fin N) :
    mmul L R (ix2 p q) = ∑ k : Fin K, L (ix2 p k) * R (ix2 k q) := rfl

/-! ## The two printed products are `mmul` -/

theorem plain_lhs0 {M K N : Nat} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from fun h => nomatch h),
    dif_pos (show (0 : Fin 2) ∈ (DotDims.plain M K N).lhsNonContracting from List.mem_singleton.mpr rfl)]
  rfl

theorem plain_rhs1 {M K N : Nat} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from fun h => nomatch h),
    dif_pos (show (1 : Fin 2) ∈ (DotDims.plain M K N).rhsNonContracting from List.mem_singleton.mpr rfl)]
  rfl

/-- The contraction sum of the plain dimension numbers, re-indexed by the one contracted coordinate. -/
theorem plain_sum {M K N : Nat} (L : Mat M K) (R : Mat K N) (j : (⟨2, ![M, N]⟩ : Shape).Idx) :
    ∑ k : (DotDims.plain M K N).contr.Idx, L ((DotDims.plain M K N).lhsIdx j k) * R ((DotDims.plain M K N).rhsIdx j k)
      = mmul L R j := by
  unfold mmul
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (row j) k :=
    funext fun a => Fin.ext (by
      match a with
      | ⟨0, _⟩ => exact plain_lhs0 _ _
      | ⟨1, _⟩ => exact ((DotDims.plain M K N).lhsIdx_val_of_single rfl j _).trans hk)
  have er : (DotDims.plain M K N).rhsIdx j ((contrEquiv1 (DotDims.plain M K N) K rfl rfl).symm k) = ix2 k (col j) :=
    funext fun a => Fin.ext (by
      match a with
      | ⟨0, _⟩ => exact ((DotDims.plain M K N).rhsIdx_val_of_single rfl j _).trans hk
      | ⟨1, _⟩ => exact plain_rhs1 _ _)
  rw [el, er]

/-- A matrix unit's product into the zero accumulator is `mmul`. -/
theorem matmul_plain {M K N : Nat} (prec : Option ContractPrecision) (L : Mat M K) (R : Mat K N) :
    matmul (F := Ideal) (φ₁ := .f32) (φ₂ := .f32) (DotDims.plain M K N) prec L R (constant ⟨2, ![M, N]⟩ .f32 0x00000000#32) = mmul L R :=
  funext fun j => (Ideal.matmul_constant_zero_apply (φ₁ := .f32) (φ₂ := .f32) (DotDims.plain M K N) prec L R j).trans (plain_sum L R j)

/-- The host's `dot_general` is `mmul`. -/
theorem dotGeneral_plain {M K N : Nat} (prec : Option ContractPrecision) (L : Mat M K) (R : Mat K N) :
    Host.dotGeneral (F := Ideal) (φ₁ := .f32) (φ₂ := .f32) (DotDims.plain M K N) prec L R = mmul L R :=
  funext fun j => (Ideal.dotGeneral_apply (φ₁ := .f32) (φ₂ := .f32) (DotDims.plain M K N) prec .single L R j).trans (plain_sum L R j)

/-! ## A bias row spread over the rows -/

/-- A `[1, N]` row added to every row of an `M × N` matrix. -/
def addRow {M N : Nat} (A : Mat M N) (b : Mat 1 N) : Mat M N := fun i => A i + b (ix2 0 (col i))

/-- `tanh` of every entry. -/
def tanhM {M N : Nat} (A : Mat M N) : Mat M N := fun i => Ideal.tanh (A i)

/-- The kernel's spelling: the row shape-cast to itself, broadcast along the rows, added. -/
theorem addf_broadcastTo {M N : Nat} (A : Mat M N) (b : Mat 1 N) (h1 : (⟨2, ![1, N]⟩ : Shape).ShapeCasts ⟨2, ![1, N]⟩)
    (h2 : (⟨2, ![1, N]⟩ : Shape).Broadcasts ⟨2, ![M, N]⟩) :
    addf (F := Ideal) (φ := .f32) A (broadcastTo ⟨2, ![M, N]⟩ (shapeCast ⟨2, ![1, N]⟩ b h1) h2) = addRow A b := by
  funext i
  rw [shapeCast_self]
  show A i + _ = A i + _
  refine congrArg (A i + ·) ?_
  refine broadcastTo_apply b h2 i (ix2 0 (col i)) fun a => ?_
  match a with
  | ⟨0, _⟩ => show (0 : Nat) = if (1 : Nat) = 1 then 0 else _; rw [if_pos rfl]
  | ⟨1, _⟩ =>
    show (i 1).val = if N = 1 then 0 else (i 1).val
    by_cases hN : N = 1
    · rw [if_pos hN]; have := idx2_lt1 i; omega
    · rw [if_neg hN]

/-- A vector of `N` entries as a `[1, N]` row. -/
def asRow {N : Nat} (v : (⟨1, ![N]⟩ : Shape).Idx → EReal) : Mat 1 N := fun i => v (ix1 (col i))

/-- The reference's spelling of the bias: the vector broadcast to `[1, N]`, then to `[M, N]`, added. -/
theorem addf_broadcastInDim {M N : Nat} (A : Mat M N) (v : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) :
    addf (F := Ideal) (φ := .f32) A (broadcastInDim ⟨2, ![M, N]⟩ ![0, 1] h2 (broadcastInDim ⟨2, ![1, N]⟩ ![1] h1 v)) = addRow A (asRow v) := by
  funext i
  show A i + _ = A i + _
  refine congrArg (A i + ·) ?_
  rw [broadcastInDim_apply ![0, 1] h2 _ i (ix2 0 (col i)) (fun a => by
    match a with
    | ⟨0, _⟩ => show (0 : Nat) = if (1 : Nat) = 1 then 0 else _; rw [if_pos rfl]
    | ⟨1, _⟩ =>
      show (i 1).val = if N = 1 then 0 else (i 1).val
      by_cases hN : N = 1
      · rw [if_pos hN]; have := idx2_lt1 i; omega
      · rw [if_neg hN])]
  refine broadcastInDim_apply ![1] h1 v (ix2 0 (col i)) (ix1 (col i)) fun a => ?_
  match a with
  | ⟨0, _⟩ =>
    show (i 1).val = if N = 1 then 0 else (i 1).val
    by_cases hN : N = 1
    · rw [if_pos hN]; have := idx2_lt1 i; omega
    · rw [if_neg hN]

/-- A vector reshaped to a `[1, N]` row is that row. -/
theorem shapeCast_asRow {N : Nat} (v : (⟨1, ![N]⟩ : Shape).Idx → EReal) (h : (⟨1, ![N]⟩ : Shape).ShapeCasts ⟨2, ![1, N]⟩) :
    shapeCast ⟨2, ![1, N]⟩ v h = asRow v := by
  funext i
  refine shapeCast_apply v h i (ix1 (col i)) ?_
  rw [Shape.rowMajor_val_one, Shape.rowMajor_val_two]
  show (i 1).val = (i 0).val * N + (i 1).val
  have : (i 0).val < 1 := idx2_lt0 i
  have h0 : (i 0).val = 0 := by omega
  rw [h0, Nat.zero_mul, Nat.zero_add]

/-! ## Blocks of rows -/

/-- The `M` consecutive rows of `G` from row `off` on. -/
def rows {M M' N : Nat} (off : Nat) (h : off + M ≤ M') (G : Mat M' N) : Mat M N :=
  fun i => G (ix2 (⟨off + (i 0).val, by have := idx2_lt0 i; omega⟩ : Fin M') (col i))

/-- A block of rows of a product is the block of rows of the left factor times the whole right factor. -/
theorem rows_mmul {M M' K N : Nat} (off : Nat) (h : off + M ≤ M') (L : Mat M' K) (R : Mat K N) :
    rows off h (mmul L R) = mmul (rows off h L) R := rfl

theorem rows_addRow {M M' N : Nat} (off : Nat) (h : off + M ≤ M') (A : Mat M' N) (b : Mat 1 N) :
    rows off h (addRow A b) = addRow (rows off h A) b := rfl

theorem rows_tanhM {M M' N : Nat} (off : Nat) (h : off + M ≤ M') (A : Mat M' N) :
    rows off h (tanhM A) = tanhM (rows off h A) := rfl

/-- All the rows: the matrix itself. -/
theorem rows_zero {M N : Nat} (h : 0 + M ≤ M) (G : Mat M N) : rows 0 h G = G := by
  funext i
  unfold rows
  refine congrArg G (funext fun a => Fin.ext ?_)
  match a with
  | ⟨0, _⟩ => show 0 + (i 0).val = (i 0).val; omega
  | ⟨1, _⟩ => rfl

/-! ## Associativity over the reals -/

/-- Every entry is a real number (neither infinity). -/
def AllReal {M N : Nat} (A : Mat M N) : Prop := ∀ i, ∃ r : ℝ, A i = (r : EReal)

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `(A · B) · C = A · (B · C)` for matrices of real numbers. -/
theorem mmul_assoc {M K J N : Nat} (A : Mat M K) (B : Mat K J) (C : Mat J N) (hA : AllReal A) (hB : AllReal B)
    (hC : AllReal C) : mmul (mmul A B) C = mmul A (mmul B C) := by
  choose a ha using hA
  choose b hb using hB
  choose c hc using hC
  funext i
  unfold mmul
  simp only [ha, hb, hc, ← EReal.coe_mul, ← coe_sum]
  refine congrArg _ ?_
  simp only [Finset.sum_mul, Finset.mul_sum]
  rw [Finset.sum_comm]
  exact Finset.sum_congr rfl fun k _ => Finset.sum_congr rfl fun l _ => mul_assoc _ _ _

end Cert.MatrixRows

end
-- ==== Proof.LibRowScaledLinear.lean ====
/-
  A linear layer whose input rows are first scaled by a column of factors, at the extended reals.

  For an `M × K` matrix `A`, a column `d` of `M` factors, a `K × N` matrix `W` and a bias vector `b` of `N` entries,
  `linearRows A d W b` is the matrix whose entry `(p, q)` is `(∑ k, (A (p, k) * d p) * W (k, q)) + b q`.
  * `linear_payload`: the vector spelling of that layer — the column broadcast along the rows and multiplied in, both
    factors narrowed to a shorter float format (the identity on extended reals), a matrix-unit product into the zero
    accumulator, the bias reshaped to a row, broadcast and added — is `linearRows`.
  * `rows_linearRows`: a block of consecutive rows of the layer's result is the layer applied to that block of rows of
    `A` and of `d`, with the whole of `W` and `b`: rows do not mix.
  * `scaleRows_bcast_col`: the column `d` obtained by giving a vector a trailing unit axis.
-/
import proofs.«128635_j50328426775032_2_alg».proof.Proof.LibMatrixRows

noncomputable section

open scoped BigOperators

namespace Cert.RowScaledLinear

open Idealize.ShloMosaic Idealize.ShloMosaic.ValueIdx Cert.MatrixRows

/-- Row `p` of `A` multiplied by the `p`-th entry of the column `d`. -/
def scaleRows {M K : Nat} (A : Mat M K) (d : Mat M 1) : Mat M K := fun i => A i * d (ix2 (row i) 0)

/-- The scaled rows through a linear layer: `(∑ k, (A (p, k) * d p) * W (k, q)) + b q`. -/
def linearRows {M K N : Nat} (A : Mat M K) (d : Mat M 1) (W : Mat K N) (b : (⟨1, ![N]⟩ : Shape).Idx → EReal) : Mat M N :=
  addRow (mmul (scaleRows A d) W) (asRow b)

/-- The vector spelling of the scaling: the column (shape-cast to itself) broadcast along the rows, multiplied in. -/
theorem mulf_broadcastTo_col {M K : Nat} (A : Mat M K) (d : Mat M 1) (h0 : (⟨2, ![M, K]⟩ : Shape).ShapeCasts ⟨2, ![M, K]⟩)
    (h1 : (⟨2, ![M, 1]⟩ : Shape).ShapeCasts ⟨2, ![M, 1]⟩) (h2 : (⟨2, ![M, 1]⟩ : Shape).Broadcasts ⟨2, ![M, K]⟩) :
    mulf (F := Ideal) (φ := .f32) (shapeCast ⟨2, ![M, K]⟩ A h0) (broadcastTo ⟨2, ![M, K]⟩ (shapeCast ⟨2, ![M, 1]⟩ d h1) h2)
      = scaleRows A d := by
  funext i
  rw [shapeCast_self, shapeCast_self]
  show A i * _ = A i * _
  refine congrArg (A i * ·) ?_
  refine broadcastTo_apply d h2 i (ix2 (row i) 0) fun a => ?_
  match a with
  | ⟨0, _⟩ =>
    show (i 0).val = if M = 1 then 0 else (i 0).val
    by_cases hM : M = 1
    · rw [if_pos hM]; have := idx2_lt0 i; omega
    · rw [if_neg hM]
  | ⟨1, _⟩ => show (0 : Nat) = if (1 : Nat) = 1 then 0 else _; rw [if_pos rfl]

/-- A matrix unit's product into the zero accumulator, whatever the operands' float formats, is `mmul`. -/
theorem matmul_plain_any {φ₁ φ₂ : FTy} {M K N : Nat} (prec : Option ContractPrecision) (L : Mat M K) (R : Mat K N) :
    matmul (F := Ideal) (φ₁ := φ₁) (φ₂ := φ₂) (DotDims.plain M K N) prec L R (constant ⟨2, ![M, N]⟩ .f32 0x00000000#32) = mmul L R :=
  funext fun j => (Ideal.matmul_constant_zero_apply (φ₁ := φ₁) (φ₂ := φ₂) (DotDims.plain M K N) prec L R j).trans (plain_sum L R j)

/-- THE LAYER'S VECTOR SPELLING is `linearRows`: narrowing to a shorter float format is the identity on extended reals. -/
theorem linear_payload {ψ : FTy} {M K N : Nat} (prec : Option ContractPrecision) (A : Mat M K) (d : Mat M 1) (W : Mat K N)
    (b : (⟨1, ![N]⟩ : Shape).Idx → EReal) (hψ : ψ.bits < FTy.f32.bits)
    (h0 : (⟨2, ![M, K]⟩ : Shape).ShapeCasts ⟨2, ![M, K]⟩) (h1 : (⟨2, ![M, 1]⟩ : Shape).ShapeCasts ⟨2, ![M, 1]⟩)
    (h2 : (⟨2, ![M, 1]⟩ : Shape).Broadcasts ⟨2, ![M, K]⟩) (h3 : (⟨2, ![K, N]⟩ : Shape).ShapeCasts ⟨2, ![K, N]⟩)
    (h4 : (⟨1, ![N]⟩ : Shape).ShapeCasts ⟨2, ![1, N]⟩) (h5 : (⟨2, ![1, N]⟩ : Shape).Broadcasts ⟨2, ![M, N]⟩) :
    addf (F := Ideal) (φ := .f32)
      (matmul (F := Ideal) (φ₁ := ψ) (φ₂ := ψ) (DotDims.plain M K N) prec
        (truncf (F := Ideal) (φ := .f32) ψ (mulf (F := Ideal) (φ := .f32) (shapeCast ⟨2, ![M, K]⟩ A h0)
          (broadcastTo ⟨2, ![M, K]⟩ (shapeCast ⟨2, ![M, 1]⟩ d h1) h2)) hψ)
        (truncf (F := Ideal) (φ := .f32) ψ (shapeCast ⟨2, ![K, N]⟩ W h3) hψ)
        (constant ⟨2, ![M, N]⟩ .f32 0x00000000#32))
      (broadcastTo ⟨2, ![M, N]⟩ (shapeCast ⟨2, ![1, N]⟩ b h4) h5)
      = linearRows A d W b := by
  have e1 : truncf (F := Ideal) (φ := .f32) ψ (mulf (F := Ideal) (φ := .f32) (shapeCast ⟨2, ![M, K]⟩ A h0)
      (broadcastTo ⟨2, ![M, K]⟩ (shapeCast ⟨2, ![M, 1]⟩ d h1) h2)) hψ = scaleRows A d :=
    (mulf_broadcastTo_col A d h0 h1 h2)
  have e2 : truncf (F := Ideal) (φ := .f32) ψ (shapeCast ⟨2, ![K, N]⟩ W h3) hψ = W := shapeCast_self W h3
  rw [e1, e2, matmul_plain_any, shapeCast_asRow]
  have h6 : (⟨2, ![1, N]⟩ : Shape).ShapeCasts ⟨2, ![1, N]⟩ := rfl
  rw [← shapeCast_self (asRow b) h6]
  exact addf_broadcastTo _ _ h6 h5

/-! ## Blocks of rows -/

theorem rows_scaleRows {M M' K : Nat} (off : Nat) (h : off + M ≤ M') (A : Mat M' K) (d : Mat M' 1) :
    rows off h (scaleRows A d) = scaleRows (rows off h A) (rows off h d) := rfl

/-- A block of rows of the layer's result is the layer of that block of rows. -/
theorem rows_linearRows {M M' K N : Nat} (off : Nat) (h : off + M ≤ M') (A : Mat M' K) (d : Mat M' 1) (W : Mat K N)
    (b : (⟨1, ![N]⟩ : Shape).Idx → EReal) :
    rows off h (linearRows A d W b) = linearRows (rows off h A) (rows off h d) W b := rfl

/-! ## The column of factors from a vector -/

/-- A vector given a trailing unit axis, read at `(p, 0)`. -/
theorem bcast_col_apply {M : Nat} (v : (⟨1, ![M]⟩ : Shape).Idx → EReal)
    (h : (⟨1, ![M]⟩ : Shape).BroadcastsInDim ⟨2, ![M, 1]⟩ ![0]) (i : (⟨2, ![M, 1]⟩ : Shape).Idx) :
    broadcastInDim ⟨2, ![M, 1]⟩ ![0] h v i = v (ix1 (row i)) := by
  refine broadcastInDim_apply ![0] h v i (ix1 (row i)) fun a => ?_
  match a with
  | ⟨0, _⟩ =>
    show (i 0).val = if M = 1 then 0 else (i 0).val
    by_cases hM : M = 1
    · rw [if_pos hM]; have := idx2_lt0 i; omega
    · rw [if_neg hM]

/-- Scaling by the column made from a vector scales row `p` by the vector's `p`-th entry. -/
theorem scaleRows_bcast_col {M K : Nat} (A : Mat M K) (v : (⟨1, ![M]⟩ : Shape).Idx → EReal)
    (h : (⟨1, ![M]⟩ : Shape).BroadcastsInDim ⟨2, ![M, 1]⟩ ![0]) (i : (⟨2, ![M, K]⟩ : Shape).Idx) :
    scaleRows A (broadcastInDim ⟨2, ![M, 1]⟩ ![0] h v) i = A i * v (ix1 (row i)) := by
  unfold scaleRows
  rw [bcast_col_apply]
  rfl

end Cert.RowScaledLinear

end
-- ==== Proof.KernelValue.lean ====
/-
  What the idealized kernel leaves in its result array, as ONE function of the four arrays its launch reads.

  The launch has ten grid points. Point `t` reads rows `5000 t … 5000 t + 4999` of the aggregated features (`[50000, 128]`)
  and of the column of normalisation factors (`[50000, 1]`), the whole transposed weight matrix (`[128, 128]`) and the whole
  bias (`[128]`), and writes rows `5000 t … 5000 t + 4999` of the result: each row scaled by its factor, multiplied by the
  weights, plus the bias. Rows do not mix, so the ten blocks are the ten row blocks of one whole-array layer
  (`Cert.RowScaledLinear.linearRows`), and together they cover the result array.
-/
import proofs.«128635_j50328426775032_2_alg».proof.Proof.Gen.KernelIdeal.Value
import proofs.«128635_j50328426775032_2_alg».proof.Proof.LibRowScaledLinear
import Idealize.ShloMosaic.Lib.Pipeline.Value

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value
open Cert.MatrixRows Cert.RowScaledLinear Idealize.ShloMosaic.ValueIdx

variable (m : (ℓ : Loc nD τ sig) → Buf (Elt Ideal) ℓ) (ρ : Dev nD → PrngReg)

/-- The aggregated features as the launch finds them. -/
abbrev agg (c : Dev nD) : Mat 50000 128 := V m c (Pipeline.arrRef spec0 0)
/-- The column of normalisation factors as the launch finds it. -/
abbrev dcol (c : Dev nD) : Mat 50000 1 := V m c (Pipeline.arrRef spec0 1)
/-- The transposed weights as the launch finds them. -/
abbrev wt (c : Dev nD) : Mat 128 128 := V m c (Pipeline.arrRef spec0 2)
/-- The bias as the launch finds it. -/
abbrev bias (c : Dev nD) : (⟨1, ![128]⟩ : Shape).Idx → EReal := V m c (Pipeline.arrRef spec0 3)

theorem hz : (![0, 0] : Fin 2 → Nat) = fun _ => 0 := funext fun a => by fin_cases a <;> rfl
theorem hz1 : (![0] : Fin 1 → Nat) = fun _ => 0 := funext fun a => by fin_cases a; rfl

/-- The body's stored value is the row-scaled linear layer of its four loaded blocks. -/
theorem pay_eq (x0 : Vec Ideal S5000x128 .f32) (x1 : Vec Ideal S5000x1 .f32) (x2 : Vec Ideal S128x128 .f32) (x3 : Vec Ideal S128 .f32) :
    k0_pay1 (F := Ideal) x0 x1 x2 x3 = linearRows (M := 5000) (K := 128) (N := 128) x0 x1 x2 x3 := by
  unfold k0_pay1
  exact linear_payload (ψ := .bf16) none x0 x1 x2 x3 bitsLt_bf16_f32 shapeCasts_S5000x128_S5000x128 shapeCasts_S5000x1_S5000x1
    broadcasts_S5000x1_S5000x128 shapeCasts_S128x128_S128x128 shapeCasts_S128_S1x128 broadcasts_S1x128_S5000x128

/-- The printed index maps over the ten points: the row-blocked windows are at block `(t, 0)`, the resident ones at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0 :=
  (by decide +kernel : ∀ t : Fin grid0.N, _)

theorem t_lt (t : Fin cfg0.N) : t.val < 10 := by
  have h1 := t.isLt
  have h2 : cfg0.N = 10 := N_0
  omega

/-- Reading a whole `[50000, 128]` array through point `t`'s block of the first window gives its rows `5000 t …`. -/
theorem read0_eq (t : Fin cfg0.N) (A : Mat 50000 128) :
    (((cfg0.win 0).blk t).view.read (Elt Ideal) A : Mat 5000 128) = rows (5000 * t.val) (by have := t_lt t; omega) A := by
  obtain ⟨e0, e1, -⟩ := idx_facts t
  funext y
  rw [View.read_apply]
  show A _ = A _
  refine congrArg A (funext fun a => Fin.ext ?_)
  match a with
  | ⟨0, _⟩ => show win0_0.index t (0 : Fin 2) * 5000 + 1 * (y 0).val = 5000 * t.val + (y 0).val; rw [e0]; omega
  | ⟨1, _⟩ => show win0_0.index t (1 : Fin 2) * 128 + 1 * (y 1).val = (y 1).val; rw [e1]; omega

/-- Reading a whole `[50000, 1]` column through point `t`'s block of the second window gives its rows `5000 t …`. -/
theorem read1_eq (t : Fin cfg0.N) (A : Mat 50000 1) :
    (((cfg0.win 1).blk t).view.read (Elt Ideal) A : Mat 5000 1) = rows (5000 * t.val) (by have := t_lt t; omega) A := by
  obtain ⟨-, -, e0, e1, -⟩ := idx_facts t
  funext y
  rw [View.read_apply]
  show A _ = A _
  refine congrArg A (funext fun a => Fin.ext ?_)
  match a with
  | ⟨0, _⟩ => show win0_1.index t (0 : Fin 2) * 5000 + 1 * (y 0).val = 5000 * t.val + (y 0).val; rw [e0]; omega
  | ⟨1, _⟩ => show win0_1.index t (1 : Fin 2) * 1 + 1 * (y 1).val = (y 1).val; rw [e1]; omega

/-- Every point's block of the third window is the whole `[128, 128]` matrix. -/
theorem read2_eq (t : Fin cfg0.N) (A : Mat 128 128) :
    (((cfg0.win 2).blk t).view.read (Elt Ideal) A : Mat 128 128) = A := by
  obtain ⟨-, -, -, -, e0, e1, -⟩ := idx_facts t
  funext y
  rw [View.read_apply]
  show A _ = A _
  refine congrArg A (funext fun a => Fin.ext ?_)
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Every point's block of the fourth window is the whole `[128]` vector. -/
theorem read3_eq (t : Fin cfg0.N) (A : (⟨1, ![128]⟩ : Shape).Idx → EReal) :
    (((cfg0.win 3).blk t).view.read (Elt Ideal) A : (⟨1, ![128]⟩ : Shape).Idx → EReal) = A := by
  obtain ⟨-, -, -, -, -, -, e0, -⟩ := idx_facts t
  funext y
  rw [View.read_apply]
  show A _ = A _
  refine congrArg A (funext fun a => Fin.ext ?_)
  match a with
  | ⟨0, _⟩ => show win0_3.index t (0 : Fin 1) * 128 + 1 * (y 0).val = (y 0).val; rw [e0]; omega

/-- Reading a whole array through point `t`'s block of the result window gives its rows `5000 t …`. -/
theorem read4_eq (t : Fin cfg0.N) (G : Mat 50000 128) :
    (((cfg0.win 4).blk t).view.read (Elt Ideal) G : Mat 5000 128) = rows (5000 * t.val) (by have := t_lt t; omega) G := by
  obtain ⟨-, -, -, -, -, -, -, e0, e1⟩ := idx_facts t
  funext y
  rw [View.read_apply]
  show G _ = G _
  refine congrArg G (funext fun a => Fin.ext ?_)
  match a with
  | ⟨0, _⟩ => show win0_4.index t (0 : Fin 2) * 5000 + 1 * (y 0).val = 5000 * t.val + (y 0).val; rw [e0]; omega
  | ⟨1, _⟩ => show win0_4.index t (1 : Fin 2) * 128 + 1 * (y 1).val = (y 1).val; rw [e1]; omega

/-- Point `t`'s blocks of the four arrays the launch reads. -/
theorem iblk0_eq (c : Dev nD) (t : Fin cfg0.N) :
    (iblk m c 0 t : Mat 5000 128) = rows (5000 * t.val) (by have := t_lt t; omega) (agg m c) := read0_eq t _
theorem iblk1_eq (c : Dev nD) (t : Fin cfg0.N) :
    (iblk m c 1 t : Mat 5000 1) = rows (5000 * t.val) (by have := t_lt t; omega) (dcol m c) := read1_eq t _
theorem iblk2_eq (c : Dev nD) (t : Fin cfg0.N) : (iblk m c 2 t : Mat 128 128) = wt m c := read2_eq t _
theorem iblk3_eq (c : Dev nD) (t : Fin cfg0.N) : (iblk m c 3 t : (⟨1, ![128]⟩ : Shape).Idx → EReal) = bias m c := read3_eq t _

/-- WHAT POINT `t` WRITES BACK is block `t` of the whole-array layer of the four arrays the launch finds. -/
theorem flushed_eq (c : Dev nD) (t : Fin cfg0.N) :
    (dats m 0 c).flushed 4 t
      = ((cfg0.win 4).blk t).view.read (Elt Ideal) (linearRows (agg m c) (dcol m c) (wt m c) (bias m c)) := by
  rw [Value.flushed4]
  unfold out0_4
  rw [View.canon_unit_zero hz]
  simp only [View.ld_unit_zero (S := S5000x128) hz, View.ld_unit_zero (S := S5000x1) hz, View.ld_unit_zero (S := S128x128) hz,
    View.ld_unit_zero (S := S128) hz1]
  rw [pay_eq, iblk0_eq, iblk1_eq, iblk2_eq, iblk3_eq, read4_eq, rows_linearRows]
  rfl

/-- Every index of the result array lies in the block of the point that owns its row. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  have hN : cfg0.N = 10 := N_0
  have ht : (i 0).val / 5000 < cfg0.N := by rw [hN]; omega
  obtain ⟨-, -, -, -, -, -, -, e7, e8⟩ := idx_facts ⟨(i 0).val / 5000, ht⟩
  refine ⟨⟨(i 0).val / 5000, ht⟩, flush0_4 _, ?_⟩
  show i ∈ ((View.whole main_v41).slice (win0_4.rect ⟨(i 0).val / 5000, ht⟩)).set
  rw [View.set_slice_whole, Rect.mem_set_unit]
  intro a
  match a with
  | ⟨0, _⟩ =>
    show win0_4.index ⟨(i 0).val / 5000, ht⟩ (0 : Fin 2) * 5000 ≤ (i 0).val
      ∧ (i 0).val < win0_4.index ⟨(i 0).val / 5000, ht⟩ (0 : Fin 2) * 5000 + 5000
    rw [e7]
    show (i 0).val / 5000 * 5000 ≤ (i 0).val ∧ (i 0).val < (i 0).val / 5000 * 5000 + 5000
    omega
  | ⟨1, _⟩ =>
    show win0_4.index ⟨(i 0).val / 5000, ht⟩ (1 : Fin 2) * 128 ≤ (i 1).val
      ∧ (i 1).val < win0_4.index ⟨(i 0).val / 5000, ht⟩ (1 : Fin 2) * 128 + 128
    rw [e8]
    omega

/-- THE RESULT ARRAY after the run: the whole-array layer of the four arrays the launch finds. -/
theorem final (c : Dev nD) :
    (dats m 0 c).arrAt 4 cfg0.N = linearRows (agg m c) (dcol m c) (wt m c) (bias m c) :=
  (dats m 0 c).arrAt_eq_of_cover 4 _ (fun t _ => flushed_eq m c t) cover

end Cert.KernelIdeal.Hand

end
-- ==== Proof.KernelHostDefs.lean ====
/-
  What the host operations before the launch leave in the three arrays the launch reads besides the bias, as terms of
  the program's arguments: the aggregated features, the column of normalisation factors, the transposed weights.

  With `src`, `tgt` the edge endpoints followed by one self loop per node, and `w` the edge weights followed by ones:
  `deg = scatter-add of w over src`, `dinv = where(deg > 0, 1 / sqrt deg, 0)`, the per-edge weight `w * dinv[src]`,
  the message `x[src] * (w * dinv[src])`, and the aggregate its scatter-add over `tgt`.
-/
import proofs.«128635_j50328426775032_2_alg».proof.Proof.Gen.KernelIdeal.Value
import Idealize.ShloMosaic.PureOps.Ideal

noncomputable section

open Idealize.ShloMosaic Idealize.ShloMosaic.TcCoe Idealize.SL.Sem Idealize.ShloMosaic.StableHlo

namespace Cert.KernelIdeal.Host

open Cert.KernelIdeal Cert.KernelIdeal.Gen

variable (x0 : FVec Ideal S50000x128 .f32) (x1 : IVec S2x600000 32) (x2 : FVec Ideal S600000 .f32) (x3 : FVec Ideal S128x128 .f32)

/-- Row `r` of the edge list followed by the self loops `0 … 49999`. -/
def srcIdx : IVec S650000 32 :=
  concatenate S650000 0 [⟨S600000, (shapeCast _ (extractStridedSlice S1x600000 ![0, 0] x1 slices_S2x600000_S1x600000_0_0) shapeCasts_S1x600000_S600000)⟩, ⟨S50000, (iotaInDim S50000 32 0)⟩] concatenates_S600000_S50000_S650000_d0
def tgtIdx : IVec S650000 32 :=
  concatenate S650000 0 [⟨S600000, (shapeCast _ (extractStridedSlice S1x600000 ![1, 0] x1 slices_S2x600000_S1x600000_1_0) shapeCasts_S1x600000_S600000)⟩, ⟨S50000, (iotaInDim S50000 32 0)⟩] concatenates_S600000_S50000_S650000_d0
/-- The edge weights followed by a one per self loop. -/
def wts : FVec Ideal S650000 .f32 :=
  concatenate S650000 0 [⟨S600000, x2⟩, ⟨S50000, (broadcastInDim S50000 ![] bcast_S_S50000 (constant S_ .f32 0x3F800000#32))⟩] concatenates_S600000_S50000_S650000_d0
/-- An index vector as a column of start indices. -/
def asCol (v : IVec S650000 32) : IVec S650000x1 32 := broadcastInDim S650000x1 ![0] bcast_S650000_S650000x1_0 v
/-- jnp's indexing: a negative index counts from the end. -/
def wrap (v : IVec S650000 32) : IVec S650000 32 :=
  select (cmpi .slt v (broadcastInDim S650000 ![] bcast_S_S650000 (constantI S_ 32 0#32))) (addi v (broadcastInDim S650000 ![] bcast_S_S650000 (constantI S_ 32 50000#32))) v
/-- The weighted degree. -/
def deg : FVec Ideal S50000 .f32 :=
  Host.scatterAdd scatter_S50000_S650000x1_S650000_n_0_0_1 (broadcastInDim S50000 ![] bcast_S_S50000 (constant S_ .f32 0x00000000#32)) (asCol (srcIdx x1)) (wts x2)
/-- `1 / sqrt deg`. -/
def dinvRaw : FVec Ideal S50000 .f32 :=
  Host.divf (broadcastInDim S50000 ![] bcast_S_S50000 (constant S_ .f32 0x3F800000#32)) (Host.sqrt (deg x1 x2))
/-- `where(deg > 0, 1 / sqrt deg, 0)`. -/
def dinv : FVec Ideal S50000 .f32 :=
  select (cmpf .ogt (deg x1 x2) (broadcastInDim S50000 ![] bcast_S_S50000 (constant S_ .f32 0x00000000#32))) (dinvRaw x1 x2)
    (broadcastInDim S50000 ![] bcast_S_S50000 (id (constant S_ .f32 0x00000000#32)))
/-- `w * dinv[src]`. -/
def wsrc : FVec Ideal S650000 .f32 :=
  mulf (wts x2) (Host.gather gather_S50000_S650000x1_S650000_n_0_n_n_0_1_1 (dinv x1 x2) (asCol (wrap (srcIdx x1))))
/-- `x[src] * (w * dinv[src])`, row by row. -/
def msg : FVec Ideal S650000x128 .f32 :=
  mulf (Host.gather gather_S50000x128_S650000x1_S650000x128_1_0_n_n_0_1_1128 x0 (asCol (wrap (srcIdx x1))))
    (broadcastInDim S650000x128 ![0, 1] bcast_S650000x1_S650000x128_0_1 (broadcastInDim S650000x1 ![0] bcast_S650000_S650000x1_0 (wsrc x1 x2)))
/-- The messages added up over their target nodes. -/
def agg : FVec Ideal S50000x128 .f32 :=
  Host.scatterAdd scatter_S50000x128_S650000x1_S650000x128_1_0_0_1 (broadcastInDim S50000x128 ![] bcast_S_S50000x128 (constant S_ .f32 0x00000000#32)) (asCol (tgtIdx x1)) (msg x0 x1 x2)
/-- The factors as a column. -/
def dcol : FVec Ideal S50000x1 .f32 := broadcastInDim S50000x1 ![0] bcast_S50000_S50000x1_0 (dinv x1 x2)
/-- The transposed weights. -/
def wT : FVec Ideal S128x128 .f32 := transpose S128x128 [1, 0] x3 transposes_S128x128_S128x128_1_0

end Cert.KernelIdeal.Host

end
-- ==== Proof.KernelHost.lean ====
/-
  The three arrays the launch reads besides the bias ARE the host stages of the module this one imports: each is read
  off the program's operations before the launch, one operation at a time.
-/
import proofs.«128635_j50328426775032_2_alg».proof.Proof.KernelHostDefs
import Idealize.ShloMosaic.Lib.StableHlo.Run

noncomputable section

open Idealize.ShloMosaic Idealize.ShloMosaic.TcCoe Idealize.SL.Sem Idealize.ShloMosaic.StableHlo

namespace Cert.KernelIdeal.Host

open Cert.KernelIdeal Cert.KernelIdeal.Gen

/-- Two arrays joined along an axis, as a function of the two arrays. -/
def cat2 {α : Type} (t : Shape) (a : Fin t.rank) (s1 s2 : Shape) (h : Shape.Concatenates [s1, s2] t a)
    (x : s1.Idx → α) (y : s2.Idx → α) : t.Idx → α :=
  concatenate t a [⟨s1, x⟩, ⟨s2, y⟩] h

theorem cat2_def {α : Type} (t : Shape) (a : Fin t.rank) (s1 s2 : Shape) (h : Shape.Concatenates [s1, s2] t a)
    (x : s1.Idx → α) (y : s2.Idx → α) : concatenate t a [⟨s1, x⟩, ⟨s2, y⟩] h = cat2 t a s1 s2 h x y := rfl

variable (m : (ℓ : Loc nD τ sig) → Buf (Elt Ideal) ℓ)

/-- The aggregate, of the arguments as core `c` holds them. -/
def aggAt (c : Dev nD) : Buf (Elt Ideal) ((c : Thread nD τ).loc main_v38) :=
  agg (m ((c : Thread nD τ).loc main_arg0)) (m ((c : Thread nD τ).loc main_arg1)) (m ((c : Thread nD τ).loc main_arg2))
/-- The column of factors, of the arguments as core `c` holds them. -/
def dcolAt (c : Dev nD) : Buf (Elt Ideal) ((c : Thread nD τ).loc main_v40) :=
  dcol (m ((c : Thread nD τ).loc main_arg1)) (m ((c : Thread nD τ).loc main_arg2))
/-- The transposed weights, of the argument as core `c` holds it. -/
def wTAt (c : Dev nD) : Buf (Elt Ideal) ((c : Thread nD τ).loc main_v39) :=
  wT (m ((c : Thread nD τ).loc main_arg3))

set_option maxRecDepth 65536 in
set_option maxHeartbeats 4000000 in
/-- The launch finds the aggregate in its first operand. -/
theorem V_agg (c : Dev nD) : V m c main_v38 = aggAt m c := by
  show StableHlo.after (List.flatten [hostOps0, hostOps0_1, hostOps0_2]) (fun b => m (c, b)) (Proc.devRef .tc main_v38) = _
  simp only [hostOps0, hostOps0_1, hostOps0_2, List.flatten_cons, List.flatten_nil, List.append_nil, List.cons_append,
    List.nil_append, cat2_def]
  after_results_simp
  try simp only [cast_eq, cat2]
  rfl

set_option maxRecDepth 65536 in
set_option maxHeartbeats 4000000 in
/-- The launch finds the column of factors in its second operand. -/
theorem V_dcol (c : Dev nD) : V m c main_v40 = dcolAt m c := by
  show StableHlo.after (List.flatten [hostOps0, hostOps0_1, hostOps0_2]) (fun b => m (c, b)) (Proc.devRef .tc main_v40) = _
  simp only [hostOps0, hostOps0_1, hostOps0_2, List.flatten_cons, List.flatten_nil, List.append_nil, List.cons_append,
    List.nil_append, cat2_def]
  after_results_simp
  try simp only [cast_eq, cat2]
  rfl

set_option maxRecDepth 65536 in
set_option maxHeartbeats 4000000 in
/-- The launch finds the transposed weights in its third operand. -/
theorem V_wT (c : Dev nD) : V m c main_v39 = wTAt m c := by
  show StableHlo.after (List.flatten [hostOps0, hostOps0_1, hostOps0_2]) (fun b => m (c, b)) (Proc.devRef .tc main_v39) = _
  simp only [hostOps0, hostOps0_1, hostOps0_2, List.flatten_cons, List.flatten_nil, List.append_nil, List.cons_append,
    List.nil_append, cat2_def]
  after_results_simp
  try simp only [cast_eq, cat2]
  rfl

end Cert.KernelIdeal.Host

end
-- ==== Proof.KernelRun.lean ====
/-
  The idealized kernel's run, read: its result array ends at the whole-array layer — rows scaled by the column of
  factors, times the transposed weights, plus the bias — of the arrays its own host operations computed from the
  arguments; the arguments end unchanged.
-/
import proofs.«128635_j50328426775032_2_alg».proof.Proof.KernelValue
import proofs.«128635_j50328426775032_2_alg».proof.Proof.KernelHost

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value
open Cert.MatrixRows Cert.RowScaledLinear

variable (m : (ℓ : Loc nD τ sig) → Buf (Elt Ideal) ℓ) (ρ : Dev nD → PrngReg)

/-- The kernel's result as a function of its arguments. -/
abbrev result (c : Dev nD) : Mat 50000 128 :=
  linearRows (M := 50000) (K := 128) (N := 128)
    (Host.agg (m ((c : Thread nD τ).loc main_arg0)) (m ((c : Thread nD τ).loc main_arg1)) (m ((c : Thread nD τ).loc main_arg2)))
    (Host.dcol (m ((c : Thread nD τ).loc main_arg1)) (m ((c : Thread nD τ).loc main_arg2)))
    (Host.wT (m ((c : Thread nD τ).loc main_arg3)))
    (m ((c : Thread nD τ).loc main_arg4))

/-- The result array after the run is `result`. -/
theorem final_args (c : Dev nD) : (dats m 0 c).arrAt 4 cfg0.N = result m c := by
  have e0 : agg m c = Host.agg (m ((c : Thread nD τ).loc main_arg0)) (m ((c : Thread nD τ).loc main_arg1)) (m ((c : Thread nD τ).loc main_arg2)) :=
    Host.V_agg m c
  have e1 : dcol m c = Host.dcol (m ((c : Thread nD τ).loc main_arg1)) (m ((c : Thread nD τ).loc main_arg2)) := Host.V_dcol m c
  have e2 : wt m c = Host.wT (m ((c : Thread nD τ).loc main_arg3)) := Host.V_wT m c
  have e3 : bias m c = m ((c : Thread nD τ).loc main_arg4) := V_main_arg4 m c
  rw [final, e0, e1, e2, e3]

/-- The run, read. -/
theorem run : θ_run defs (onTc (τ := τ) (main (F := Ideal))) ⟨m, fun _ => 0, ρ⟩ fun r => ∀ c : Dev nD,
      r.2.mem ((c : Thread nD τ).loc main_v41) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩) (Value.run_blocks m ρ)

end Cert.KernelIdeal.Hand

end
-- ==== Proof.LibScatterLaw.lean ====
/-
  General lemmas about the host's gather and accumulating scatter on the extended reals.

  * THE LAW (`hostScatterAdd_zero_mul`): a scatter-add into zeros, multiplied at an operand index by a non-negative real
    `c`, is the scatter-add of the updates each multiplied by a factor `g j`, provided `g j = c` at every update index
    that lands on that operand index. It rests on `sum_mul_coe_of_nonneg`: multiplying by a non-negative REAL distributes
    over any finite sum of extended reals, infinities included.
  * DEGREES ARE REAL (`hostScatterAdd_zero_one_nat`, `rsqrt_max_one_nat`, `rsqrt_max_one_degree`): a scatter-add of ones into zeros is a natural number (how many
    updates land there); the literals `1.0` and `0.0`; and the inverse square root of `max 1 n` is a non-negative real.
  * A scatter's result index (`resultIdx?_eq_some_iff`), and THE FOUR INDEX READINGS: the row gather / the vector gather
    along axis 0 read at an index (start index read signed and clamped), the row scatter / the vector scatter along axis 0
    (start index read signed, not clamped), and the fact that joins them (`clamped_select_of_hit`).
-/
import Idealize.ShloMosaic.PureOps.Ideal
import Idealize.ShloMosaic.PureOps.Ideal.Laws
import Idealize.ShloMosaic.Lib.ValueIdx
import Mathlib.Data.EReal.Operations
import Mathlib.Data.EReal.Inv

noncomputable section

open scoped BigOperators

namespace Idealize.ShloMosaic.ScatterLaw

open Idealize.ShloMosaic Idealize.ShloMosaic.ValueIdx

/-! ## The law -/

/-- Multiplying by a non-negative real distributes over a finite sum of extended reals (no finiteness of the summands
    is needed: a non-negative real factor keeps the sign of every infinity). -/
theorem sum_mul_coe_of_nonneg {ι : Type*} (S : Finset ι) (f : ι → EReal) (c : ℝ) (hc : 0 ≤ c) :
    (∑ j ∈ S, f j) * (c : EReal) = ∑ j ∈ S, f j * (c : EReal) := by
  classical
  induction S using Finset.induction_on with
  | empty => simp
  | insert a S ha ih =>
    rw [Finset.sum_insert ha, Finset.sum_insert ha,
      EReal.right_distrib_of_nonneg_of_ne_top (EReal.coe_nonneg.mpr hc) (EReal.coe_ne_top c), ih]

/-- THE LAW. A scatter-add into zeros, times a non-negative real `c` at operand index `i`, is the scatter-add of the
    updates each times its own factor `g j`, when `g j = c` for every update index `j` that lands on `i`. -/
theorem hostScatterAdd_zero_mul {s si su : Shape} (d : ScatterDims s si su) {w : Nat} (idx : IVec si w)
    (upd g : su.Idx → EReal) (i : s.Idx) (c : ℝ) (hc : 0 ≤ c)
    (hg : ∀ j, d.resultIdx? j idx = some i → g j = (c : EReal)) :
    Ideal.hostScatterAdd d (fun _ => 0) idx upd i * (c : EReal)
      = Ideal.hostScatterAdd d (fun _ => 0) idx (fun j => upd j * g j) i := by
  unfold Ideal.hostScatterAdd
  simp only [zero_add]
  rw [sum_mul_coe_of_nonneg _ _ c hc]
  refine Finset.sum_congr rfl fun j hj => ?_
  rw [hg j (Finset.mem_filter.mp hj).2]

/-! ## Degrees are real -/

/-- A scatter-add of ones into zeros counts the updates that land at `i`: it is a natural number. -/
theorem hostScatterAdd_zero_one_nat {s si su : Shape} (d : ScatterDims s si su) {w : Nat} (idx : IVec si w) (i : s.Idx) :
    ∃ n : ℕ, Ideal.hostScatterAdd d (fun _ => 0) idx (fun _ => (1 : EReal)) i = (n : EReal) := by
  refine ⟨(Finset.univ.filter (fun j => d.resultIdx? j idx = some i)).card, ?_⟩
  unfold Ideal.hostScatterAdd
  simp only [zero_add]
  rw [Finset.sum_const, EReal.nsmul_eq_mul, mul_one]

/-- The literal `1.0` denotes the extended real `1`. -/
theorem ofBits_f32_one : Ideal.ofBits .f32 0x3F800000#32 = 1 := by
  simp [Ideal.ofBits, Ideal.ieee, -EReal.coe_mul]; norm_num

/-- The literal `0.0` denotes the extended real `0`. -/
theorem ofBits_f32_zero : Ideal.ofBits .f32 0x00000000#32 = 0 := Ideal.ofBits_zero_f32

/-- The inverse square root of `max 1 n`, `n` a natural number, is a non-negative real. -/
theorem rsqrt_max_one_nat (n : ℕ) : ∃ r : ℝ, 0 ≤ r ∧ Ideal.rsqrt (max (1 : EReal) (n : EReal)) = (r : EReal) := by
  refine ⟨(Real.sqrt (max (1 : ℝ) (n : ℝ)))⁻¹, inv_nonneg.mpr (Real.sqrt_nonneg _), ?_⟩
  have h1 : max (1 : EReal) (n : EReal) = ((max (1 : ℝ) (n : ℝ) : ℝ) : EReal) := by
    rw [EReal.coe_strictMono.monotone.map_max, EReal.coe_one, EReal.coe_natCast]
  have hpos : (0 : ℝ) < max (1 : ℝ) (n : ℝ) := lt_of_lt_of_le one_pos (le_max_left _ _)
  rw [h1, Ideal.rsqrt_coe, if_neg (not_lt.mpr hpos.le), if_neg hpos.ne']

/-- So the inverse square root of `max 1 (degree)`, the degree a scatter-add of ones into zeros, is a non-negative real. -/
theorem rsqrt_max_one_degree {s si su : Shape} (d : ScatterDims s si su) {w : Nat} (idx : IVec si w) (i : s.Idx) :
    ∃ r : ℝ, 0 ≤ r ∧
      Ideal.rsqrt (max (1 : EReal) (Ideal.hostScatterAdd d (fun _ => 0) idx (fun _ => (1 : EReal)) i)) = (r : EReal) := by
  obtain ⟨n, hn⟩ := hostScatterAdd_zero_one_nat d idx i
  rw [hn]; exact rsqrt_max_one_nat n

/-! ## A scatter's result index -/

/-- An update index `j` lands on operand index `i` exactly when, on every operand axis, the signed start plus the
    window coordinate is `i`'s coordinate (in particular it is inside the operand there). -/
theorem resultIdx?_eq_some_iff {s si su : Shape} (d : ScatterDims s si su) {w : Nat} (j : su.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hf a
      subst hf
      exact (Int.toNat_of_nonneg (h a).1).symm
    · intro hall
      funext a
      refine Fin.ext ?_
      show (d.start j idx a + (d.window j a : Int)).toNat = (i a).val
      rw [hall a]; exact Int.toNat_natCast _
  · rename_i h
    constructor
    · intro hf; cases hf
    · intro hall
      exfalso; apply h; intro a
      rw [hall a]
      exact ⟨Int.natCast_nonneg _, by exact_mod_cast (i a).isLt⟩

/-! ## The row scatter along axis 0 -/

/-- The dimension numbers of `x.at[idx].add(u)` for a table `x : [N, D]`, scatter indices `[E, 1]` and updates
    `[E, D]`: update row `e` is added to the table row its index names. Their conditions `wf` are decided on a program's
    literal shapes. -/
abbrev rowsScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- THE ROW SCATTER'S HITS: update element `(e, q)` lands on table element `i` exactly when index `e`, read signed, is
    `i`'s row and `q` is `i`'s column. -/
theorem rowsScatter_resultIdx?_iff {N D E w : Nat}
    (wf : ScatterDims.WF ⟨2, ![N, D]⟩ ⟨2, ![E, 1]⟩ ⟨2, ![E, D]⟩ [1] [0] [0] 1)
    (idx : IVec ⟨2, ![E, 1]⟩ w) (e : Fin E) (q : Fin D) (i : (⟨2, ![N, D]⟩ : Shape).Idx) :
    (rowsScatterDims N D E wf).resultIdx? (ix2 e q) idx = some i ↔
      ((idx (ix2 e 0)).toInt = ((i 0).val : Int) ∧ i 1 = q) := by
  rw [resultIdx?_eq_some_iff, Fin.forall_fin_two]
  have hsi : (rowsScatterDims N D E wf).siIdx (ix2 e q)
      ⟨List.idxOf (0 : Fin 2) (rowsScatterDims N D E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  have h0 : (rowsScatterDims N D E wf).start (ix2 e q) idx 0 = (idx (ix2 e 0)).toInt := by
    unfold ScatterDims.start
    rw [dif_pos (show (0 : Fin 2) ∈ (rowsScatterDims N D E wf).scatterDimsToOperandDims from List.mem_singleton.mpr rfl), hsi]
  have h1 : (rowsScatterDims N D E wf).start (ix2 e q) idx 1 = 0 := rfl
  have w0 : (rowsScatterDims N D E wf).window (ix2 e q) 0 = 0 := rfl
  have w1 : (rowsScatterDims N D E wf).window (ix2 e q) 1 = q.val := rfl
  rw [h0, h1, w0, w1]
  refine and_congr (by rw [Nat.cast_zero, add_zero]) ?_
  constructor
  · intro h; exact Fin.ext (by omega)
  · intro h
    have h' : (i 1).val = q.val := congrArg Fin.val h
    omega

/-! ## The vector scatter along axis 0 -/

/-- The dimension numbers of `x.at[idx].add(u)` for a vector `x : [N]`, scatter indices `[E, 1]` and updates `[E]`:
    update `e` is added to the element its index names. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- THE VECTOR SCATTER'S HITS: update `e` lands on element `i` exactly when index `e`, read signed, is `i`. -/
theorem vecScatter_resultIdx?_iff {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx) :
    (vecScatterDims N E wf).resultIdx? (ix1 e) idx = some i ↔ (idx (ix2 e 0)).toInt = ((i 0).val : Int) := by
  rw [resultIdx?_eq_some_iff, Fin.forall_fin_one]
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e 0 := by
    funext b; refine Fin.ext ?_
    match b with
    | ⟨0, _⟩ => rfl
    | ⟨1, _⟩ => rfl
  have h0 : (vecScatterDims N E wf).start (ix1 e) idx 0 = (idx (ix2 e 0)).toInt := by
    unfold ScatterDims.start
    rw [dif_pos (show (0 : Fin 1) ∈ (vecScatterDims N E wf).scatterDimsToOperandDims from List.mem_singleton.mpr rfl), hsi]
  have w0 : (vecScatterDims N E wf).window (ix1 e) 0 = 0 := rfl
  rw [h0, w0, Nat.cast_zero, add_zero]

/-! ## The row gather along axis 0 -/

/-- The dimension numbers of `x[idx]` for a table `x : [N, D]` and start indices `[E, 1]`: result row `e` is the table
    row its index names. -/
abbrev rowsGatherDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT `(e, q)`: the table at column `q` of the row index `e` names, read signed and clamped into
    `[0, N − 1]`. -/
theorem rowsGather_apply {α : Type} {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsGatherDims N D E wf) x idx (ix2 e q)
      = x (ix2 ⟨min (idx (ix2 e 0)).toInt.toNat (N - 1), by omega⟩ q) := by
  unfold Host.gather
  refine congrArg x ?_
  have hsi : (rowsGatherDims N D E wf).siIdx (ix2 e q)
      ⟨List.idxOf (0 : Fin 2) (rowsGatherDims N D E wf).startIndexMap,
        List.idxOf_lt_length_iff.2 (List.mem_singleton.mpr rfl)⟩ = ix2 e 0 := by
    funext b; refine Fin.ext ?_
    match b with
    | ⟨0, _⟩ => rfl
    | ⟨1, _⟩ => rfl
  have h0 : (rowsGatherDims N D E wf).start (ix2 e q) idx 0 = min (idx (ix2 e 0)).toInt.toNat (N - 1) := by
    unfold GatherDims.start
    rw [dif_pos (show (0 : Fin 2) ∈ (rowsGatherDims N D E wf).startIndexMap from List.mem_singleton.mpr rfl), hsi]
    rfl
  have h1 : (rowsGatherDims N D E wf).start (ix2 e q) idx 1 = 0 := rfl
  have b0 : (rowsGatherDims N D E wf).batchCoord (ix2 e q) 0 = 0 := rfl
  have b1 : (rowsGatherDims N D E wf).batchCoord (ix2 e q) 1 = 0 := rfl
  have o0 : (rowsGatherDims N D E wf).offCoord (ix2 e q) 0 = 0 := rfl
  have o1 : (rowsGatherDims N D E wf).offCoord (ix2 e q) 1 = q.val := rfl
  funext a
  refine Fin.ext ?_
  match a with
  | ⟨0, _⟩ =>
    show (rowsGatherDims N D E wf).start (ix2 e q) idx 0 + (rowsGatherDims N D E wf).batchCoord (ix2 e q) 0
      + (rowsGatherDims N D E wf).offCoord (ix2 e q) 0 = min (idx (ix2 e 0)).toInt.toNat (N - 1)
    rw [h0, b0, o0, Nat.add_zero]
  | ⟨1, _⟩ =>
    show (rowsGatherDims N D E wf).start (ix2 e q) idx 1 + (rowsGatherDims N D E wf).batchCoord (ix2 e q) 1
      + (rowsGatherDims N D E wf).offCoord (ix2 e q) 1 = q.val
    rw [h1, b1, o1, Nat.add_zero, Nat.zero_add]

/-! ## The vector gather along axis 0 -/

/-- The dimension numbers of `x[idx]` for a vector `x : [N]` and start indices `[E, 1]`: result element `e` is the
    element its index names. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the vector at the index `e` names, read signed and clamped into `[0, N − 1]`. -/
theorem vecGather_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  refine congrArg x ?_
  have hsi : (vecGatherDims N E wf).siIdx (ix1 e)
      ⟨List.idxOf (0 : Fin 1) (vecGatherDims N E wf).startIndexMap,
        List.idxOf_lt_length_iff.2 (List.mem_singleton.mpr rfl)⟩ = ix2 e 0 := by
    funext b; refine Fin.ext ?_
    match b with
    | ⟨0, _⟩ => rfl
    | ⟨1, _⟩ => rfl
  have h0 : (vecGatherDims N E wf).start (ix1 e) idx 0 = min (idx (ix2 e 0)).toInt.toNat (N - 1) := by
    unfold GatherDims.start
    rw [dif_pos (show (0 : Fin 1) ∈ (vecGatherDims N E wf).startIndexMap from List.mem_singleton.mpr rfl), hsi]
    rfl
  have b0 : (vecGatherDims N E wf).batchCoord (ix1 e) 0 = 0 := rfl
  have o0 : (vecGatherDims N E wf).offCoord (ix1 e) 0 = 0 := rfl
  funext a
  refine Fin.ext ?_
  match a with
  | ⟨0, _⟩ =>
    show (vecGatherDims N E wf).start (ix1 e) idx 0 + (vecGatherDims N E wf).batchCoord (ix1 e) 0
      + (vecGatherDims N E wf).offCoord (ix1 e) 0 = min (idx (ix2 e 0)).toInt.toNat (N - 1)
    rw [h0, b0, o0, Nat.add_zero]

/-! ## What joins a scatter's hit to the gather's clamped row -/

/-- A start index that, read signed, is the natural number `v < N` is not negative, so the usual wrap-around of
    negative indices (`select (b < 0) (b + N) b`) leaves it alone, and the gather's clamp into `[0, N − 1]` leaves it
    alone too: the gather reads row `v`. -/
theorem clamped_select_of_hit (b : BitVec 32) (N v : Nat) (hb : b.toInt = (v : Int)) (hv : v < N) :
    min (Scalar.select (IntOp.cmpi .slt b 0#32) (IntOp.addi b (BitVec.ofNat 32 N)) b).toInt.toNat (N - 1) = v := by
  have hslt : b.slt 0#32 = false := by
    rw [BitVec.slt_eq_decide]
    simp [hb]
  have hc : IntOp.cmpi .slt b 0#32 = 0#1 := by
    unfold IntOp.cmpi
    rw [hslt]; rfl
  rw [hc, select_zero, hb, Int.toNat_natCast]
  omega

end Idealize.ShloMosaic.ScatterLaw

end
-- ==== Proof.Bridge.lean ====
/-
  The reference's result is the kernel's whole-array layer of the kernel's own host arrays, when every weighted degree is
  positive.

  Both programs form `deg` (the weights scatter-added over the source nodes). The reference takes `dinv = 1 / sqrt deg`,
  scales each message `x[src]` by `w * dinv[src] * dinv[tgt]`, scatter-adds over the target nodes and applies the linear
  layer. The kernel takes `where(deg > 0, 1 / sqrt deg, 0)`, scales each message by `w * dinv[src]` only, scatter-adds, and
  scales ROW `v` of the aggregate by `dinv v` inside the layer. With `deg > 0` the two `dinv` are one vector of non-negative
  reals, every message that lands on row `v` has target `v` (so its factor `dinv[tgt]` is `dinv v`), and a non-negative real
  factor distributes over the finite sum of extended reals that a scatter-add is: the two aggregates agree row by row.
-/
import proofs.«128635_j50328426775032_2_alg».proof.Proof.Gen.ReferenceIdeal.Read
import proofs.«128635_j50328426775032_2_alg».proof.Proof.KernelHostDefs
import proofs.«128635_j50328426775032_2_alg».proof.Proof.LibScatterLaw
import proofs.«128635_j50328426775032_2_alg».proof.Proof.LibRowScaledLinear

noncomputable section

open scoped BigOperators

namespace Cert.Bridge

open Idealize.ShloMosaic Idealize.ShloMosaic.ValueIdx Idealize.ShloMosaic.ScatterLaw
open Cert.MatrixRows Cert.RowScaledLinear
open Cert.ReferenceIdeal.Read

variable (x0 : (⟨2, ![50000, 128]⟩ : Shape).Idx → EReal) (x1 : IVec ⟨2, ![2, 600000]⟩ 32)
  (x2 : (⟨1, ![600000]⟩ : Shape).Idx → EReal) (x3 : (⟨2, ![128, 128]⟩ : Shape).Idx → EReal)
  (x4 : (⟨1, ![128]⟩ : Shape).Idx → EReal)

/-- Every node's weighted degree is positive. -/
def DegPos : Prop := ∀ v : (⟨1, ![50000]⟩ : Shape).Idx, 0 < val_main_v11 (F := Ideal) x1 x2 v

/-! ## The inverse square root of a positive extended real -/

/-- `1 / sqrt d` for `0 < d ≤ +∞` is a non-negative real (`0` at `+∞`). -/
theorem inv_sqrt_real (d : EReal) (h : 0 < d) : ∃ r : ℝ, 0 ≤ r ∧ Ideal.div 1 (Ideal.sqrt d) = (r : EReal) := by
  induction d using EReal.rec with
  | bot => exact absurd h (not_lt.mpr bot_le)
  | top =>
    refine ⟨0, le_refl _, ?_⟩
    rw [Ideal.sqrt_top]
    unfold Ideal.div
    rw [if_neg EReal.top_ne_zero, EReal.inv_top, mul_zero]
    exact EReal.coe_zero.symm
  | coe r =>
    have hr : 0 < r := by exact_mod_cast h
    refine ⟨1 / Real.sqrt r, by positivity, ?_⟩
    rw [Ideal.sqrt_coe, if_neg (not_lt.mpr hr.le), Ideal.div_coe (Real.sqrt_pos.mpr hr).ne', one_mul]

/-! ## The kernel's host stages are the reference's -/

theorem deg_eq : Cert.KernelIdeal.Host.deg x1 x2 = val_main_v11 (F := Ideal) x1 x2 := rfl
theorem dinvRaw_eq : Cert.KernelIdeal.Host.dinvRaw x1 x2 = val_main_v14 (F := Ideal) x1 x2 := rfl

/-- A comparison bit `a > b` is set when `b < a`. -/
theorem cmp_ogt_of_lt (a b : EReal) (h : b < a) : Ideal.cmp .ogt a b = 1#1 := by
  unfold Ideal.cmp
  dsimp only
  rw [decide_eq_true h]
  rfl

/-- Where the degree is positive the kernel's guarded factor is the reference's `1 / sqrt deg`. -/
theorem dinv_eq (H : DegPos x1 x2) : Cert.KernelIdeal.Host.dinv x1 x2 = val_main_v14 (F := Ideal) x1 x2 := by
  funext v
  unfold Cert.KernelIdeal.Host.dinv
  rw [select_apply, cmpf_apply, deg_eq, dinvRaw_eq]
  have hb : broadcastInDim Cert.KernelIdeal.S50000 ![] Cert.KernelIdeal.Facts₀.bcast_S_S50000
      (constant (F := Ideal) Cert.KernelIdeal.S_ .f32 0x00000000#32) v = (0 : EReal) := Ideal.ofBits_zero_f32
  rw [hb]
  have hc : FloatOps.cmpf (F := Ideal) (φ := .f32) .ogt (val_main_v11 (F := Ideal) x1 x2 v) (0 : EReal) = 1#1 :=
    cmp_ogt_of_lt _ _ (H v)
  rw [hc, select_one]

/-- Each factor is a non-negative real. -/
theorem dinv_real (H : DegPos x1 x2) (v : (⟨1, ![50000]⟩ : Shape).Idx) :
    ∃ r : ℝ, 0 ≤ r ∧ val_main_v14 (F := Ideal) x1 x2 v = (r : EReal) := by
  obtain ⟨r, hr0, hr⟩ := inv_sqrt_real (val_main_v11 (F := Ideal) x1 x2 v) (H v)
  refine ⟨r, hr0, ?_⟩
  rw [val_main_v14_apply, val_main_v12_apply, val_main_v13_apply, val_main_cst_1_apply, Ideal.hostDivf_def,
    Ideal.hostUnary_sqrt_def]
  show Ideal.div (Ideal.ofBits .f32 0x3F800000#32) _ = _
  rw [ofBits_f32_one]
  exact hr

/-- The kernel's per-edge weight `w * dinv[src]` is the reference's first product. -/
theorem wsrc_eq (H : DegPos x1 x2) : Cert.KernelIdeal.Host.wsrc x1 x2 = val_main_v22 (F := Ideal) x1 x2 := by
  unfold Cert.KernelIdeal.Host.wsrc
  rw [dinv_eq x1 x2 H]
  rfl

/-- A vector of per-edge factors spread over the 128 columns, read at an element: the factor of the element's row. -/
theorem spread_apply (y : (⟨1, ![650000]⟩ : Shape).Idx → EReal) (j : (⟨2, ![650000, 128]⟩ : Shape).Idx) :
    broadcastInDim Cert.ReferenceIdeal.S650000x128 ![0, 1] Cert.ReferenceIdeal.Facts₀.bcast_S650000x1_S650000x128_0_1
      (broadcastInDim Cert.ReferenceIdeal.S650000x1 ![0] Cert.ReferenceIdeal.Facts₀.bcast_S650000_S650000x1_0 y) j
      = y (idx_main_v38 (idx_main_v39 j)) := by
  rw [broadcastInDim_apply _ Cert.ReferenceIdeal.Facts₀.bcast_S650000x1_S650000x128_0_1 _ j (idx_main_v39 j) (fun a => match a with
    | ⟨0, _⟩ => by show (j 0).val = if (650000 : Nat) = 1 then 0 else (j 0).val; rw [if_neg (by decide)]
    | ⟨1, _⟩ => by show 0 = if (1 : Nat) = 1 then 0 else (j 1).val; rw [if_pos rfl])]
  exact broadcastInDim_apply _ Cert.ReferenceIdeal.Facts₀.bcast_S650000_S650000x1_0 y (idx_main_v39 j) (idx_main_v38 (idx_main_v39 j)) (fun a => match a with
    | ⟨0, _⟩ => by show (j 0).val = if (650000 : Nat) = 1 then 0 else (j 0).val; rw [if_neg (by decide)])

/-- The kernel gathers the same feature rows as the reference. -/
theorem xsrc_eq : Host.gather Cert.KernelIdeal.gather_S50000x128_S650000x1_S650000x128_1_0_n_n_0_1_1128 x0
    (Cert.KernelIdeal.Host.asCol (Cert.KernelIdeal.Host.wrap (Cert.KernelIdeal.Host.srcIdx x1))) = val_main_v37 (F := Ideal) x0 x1 := rfl

/-- The kernel's message at an element: the gathered feature times the edge's weight `w * dinv[src]`. -/
theorem msg_apply (H : DegPos x1 x2) (j : (⟨2, ![650000, 128]⟩ : Shape).Idx) :
    Cert.KernelIdeal.Host.msg x0 x1 x2 j
      = val_main_v37 (F := Ideal) x0 x1 j * val_main_v22 (F := Ideal) x1 x2 (idx_main_v38 (idx_main_v39 j)) := by
  unfold Cert.KernelIdeal.Host.msg
  rw [wsrc_eq x1 x2 H, xsrc_eq, mulf_apply]
  exact congrArg (val_main_v37 (F := Ideal) x0 x1 j * ·) (spread_apply (val_main_v22 (F := Ideal) x1 x2) j)

/-- The reference's message at an element: the same, times the factor of the edge's target. -/
theorem refmsg_apply (j : (⟨2, ![650000, 128]⟩ : Shape).Idx) :
    val_main_v40 (F := Ideal) x0 x1 x2 j
      = val_main_v37 (F := Ideal) x0 x1 j * (val_main_v22 (F := Ideal) x1 x2 (idx_main_v38 (idx_main_v39 j))
          * val_main_v29 (F := Ideal) x1 x2 (idx_main_v38 (idx_main_v39 j))) := by
  rw [val_main_v40_apply, val_main_v39_apply, val_main_v38_apply, val_main_v30_apply]
  rfl

/-! ## The aggregates agree row by row -/

/-- The reference's scatter is the row scatter along axis 0. -/
abbrev rowsD : ScatterDims ⟨2, ![50000, 128]⟩ ⟨2, ![650000, 1]⟩ ⟨2, ![650000, 128]⟩ :=
  rowsScatterDims 50000 128 650000 Cert.ReferenceIdeal.scatter_S50000x128_S650000x1_S650000x128_1_0_0_1.wf

/-- The reference's factor gather is the vector gather along axis 0. -/
abbrev vecG : GatherDims ⟨1, ![50000]⟩ ⟨2, ![650000, 1]⟩ ⟨1, ![650000]⟩ :=
  vecGatherDims 50000 650000 Cert.ReferenceIdeal.gather_S50000_S650000x1_S650000_n_0_n_n_0_1_1.wf

/-- An update that lands on row `v` has target `v`, so the factor the reference gathers for it is `dinv v`. -/
theorem factor_of_hit (j : (⟨2, ![650000, 128]⟩ : Shape).Idx) (i : (⟨2, ![50000, 128]⟩ : Shape).Idx)
    (hit : rowsD.resultIdx? j (val_main_v42 (F := Ideal) x1) = some i) :
    val_main_v29 (F := Ideal) x1 x2 (idx_main_v38 (idx_main_v39 j)) = val_main_v14 (F := Ideal) x1 x2 (ix1 (row i)) := by
  obtain ⟨e, q, rfl⟩ : ∃ (e : Fin 650000) (q : Fin 128), j = ix2 e q := ⟨row j, col j, eq_ix2 j⟩
  obtain ⟨htgt, -⟩ := (rowsScatter_resultIdx?_iff _ (val_main_v42 (F := Ideal) x1) e q i).mp hit
  have hl42 : idx_main_v42 (ix2 e (0 : Fin 1)) = ix1 e := funext fun a => Fin.ext (by
    match a with
    | ⟨0, _⟩ => rfl)
  have hb : (val_main_v6 (F := Ideal) x1 (ix1 e)).toInt = ((i 0).val : Int) := by
    rw [← htgt, val_main_v42_apply, hl42]
  have hv : (i 0).val < 50000 := idx2_lt0 i
  have hl : idx_main_v38 (idx_main_v39 (ix2 e q)) = ix1 e := funext fun a => Fin.ext (by
    match a with
    | ⟨0, _⟩ => rfl)
  rw [hl]
  show Host.gather vecG (val_main_v14 (F := Ideal) x1 x2) (val_main_v28 (F := Ideal) x1) (ix1 e) = _
  refine (vecGather_apply (N := 50000) (E := 650000) (by decide)
    Cert.ReferenceIdeal.gather_S50000_S650000x1_S650000_n_0_n_n_0_1_1.wf (val_main_v14 (F := Ideal) x1 x2)
    (val_main_v28 (F := Ideal) x1) e).trans ?_
  refine congrArg (val_main_v14 (F := Ideal) x1 x2) (funext fun a => Fin.ext ?_)
  match a with
  | ⟨0, _⟩ =>
    show min (val_main_v28 (F := Ideal) x1 (ix2 e 0)).toInt.toNat (50000 - 1) = (i 0).val
    have hl28 : idx_main_v28 (ix2 e (0 : Fin 1)) = ix1 e := funext fun a => Fin.ext (by
      match a with
      | ⟨0, _⟩ => rfl)
    rw [val_main_v28_apply, hl28]
    exact clamped_select_of_hit (val_main_v6 (F := Ideal) x1 (ix1 e)) 50000 (i 0).val hb hv

/-- THE AGGREGATES: the reference's is the kernel's with row `v` multiplied by `dinv v`. -/
theorem agg_law (H : DegPos x1 x2) (i : (⟨2, ![50000, 128]⟩ : Shape).Idx) :
    val_main_v43 (F := Ideal) x0 x1 x2 i
      = Cert.KernelIdeal.Host.agg x0 x1 x2 i * val_main_v14 (F := Ideal) x1 x2 (ix1 (row i)) := by
  obtain ⟨r, hr0, hr⟩ := dinv_real x1 x2 H (ix1 (row i))
  have hz : (val_main_v41 (F := Ideal)) = fun _ => (0 : EReal) := funext fun j => by
    rw [val_main_v41_apply, val_main_cst_7_apply]; exact Ideal.ofBits_zero_f32
  have hupd : (fun j => Cert.KernelIdeal.Host.msg x0 x1 x2 j * val_main_v29 (F := Ideal) x1 x2 (idx_main_v38 (idx_main_v39 j)))
      = val_main_v40 (F := Ideal) x0 x1 x2 := funext fun j => by
    rw [msg_apply x0 x1 x2 H, refmsg_apply, mul_assoc]
  have eR : val_main_v43 (F := Ideal) x0 x1 x2
      = Ideal.hostScatterAdd rowsD (val_main_v41 (F := Ideal)) (val_main_v42 (F := Ideal) x1) (val_main_v40 (F := Ideal) x0 x1 x2) := rfl
  have eK : Cert.KernelIdeal.Host.agg x0 x1 x2
      = Ideal.hostScatterAdd rowsD (val_main_v41 (F := Ideal)) (val_main_v42 (F := Ideal) x1) (Cert.KernelIdeal.Host.msg x0 x1 x2) := rfl
  rw [hr, eR, eK, hz, hostScatterAdd_zero_mul rowsD (val_main_v42 (F := Ideal) x1) (Cert.KernelIdeal.Host.msg x0 x1 x2)
    (fun j => val_main_v29 (F := Ideal) x1 x2 (idx_main_v38 (idx_main_v39 j))) i r hr0
    (fun j hit => (factor_of_hit x1 x2 j i hit).trans hr), hupd]

/-- So the reference's aggregate is the kernel's with its rows scaled by the kernel's column of factors. -/
theorem agg_eq (H : DegPos x1 x2) :
    val_main_v43 (F := Ideal) x0 x1 x2
      = scaleRows (M := 50000) (K := 128) (Cert.KernelIdeal.Host.agg x0 x1 x2) (Cert.KernelIdeal.Host.dcol x1 x2) := by
  funext i
  rw [agg_law x0 x1 x2 H i]
  unfold Cert.KernelIdeal.Host.dcol
  rw [dinv_eq x1 x2 H]
  exact (scaleRows_bcast_col (M := 50000) (K := 128) _ (val_main_v14 (F := Ideal) x1 x2) Cert.KernelIdeal.Facts₀.bcast_S50000_S50000x1_0 i).symm

/-! ## The results agree -/

/-- THE REFERENCE'S RESULT is the kernel's whole-array layer of the kernel's host arrays. -/
theorem ref_eq (H : DegPos x1 x2) :
    val_main_v48 (F := Ideal) x0 x1 x2 x3 x4
      = linearRows (M := 50000) (K := 128) (N := 128) (Cert.KernelIdeal.Host.agg x0 x1 x2) (Cert.KernelIdeal.Host.dcol x1 x2)
          (Cert.KernelIdeal.Host.wT x3) x4 := by
  show addf (F := Ideal) (φ := .f32)
      (Host.dotGeneral (F := Ideal) (φ₁ := .f32) (φ₂ := .f32) (DotDims.plain 50000 128 128) none (val_main_v43 (F := Ideal) x0 x1 x2) (val_main_v44 (F := Ideal) x3))
      (broadcastInDim ⟨2, ![50000, 128]⟩ ![0, 1] Cert.ReferenceIdeal.Facts₀.bcast_S1x128_S50000x128_0_1
        (broadcastInDim ⟨2, ![1, 128]⟩ ![1] Cert.ReferenceIdeal.Facts₀.bcast_S128_S1x128_1 x4)) = _
  rw [dotGeneral_plain, addf_broadcastInDim, agg_eq x0 x1 x2 H]
  rfl

end Cert.Bridge

end
-- ==== Proof.PreDegree.lean ====
/-
  What the precondition says about the degrees: its last conjunct is `all(deg > 0)`, with `deg` the reference's own
  scatter-add of the weights (a one per self loop) over the source nodes; read at a node it is `0 < deg v`.
-/
import proofs.«128635_j50328426775032_2_alg».proof.Pre_finite_inputs
import proofs.«128635_j50328426775032_2_alg».proof.Proof.Gen.Pre_finite_inputs
import proofs.«128635_j50328426775032_2_alg».proof.Proof.Bridge
import Idealize.ShloMosaic.Lib.ReduceAll

noncomputable section

namespace Cert.PreDegree

open Idealize.ShloMosaic Idealize.ShloMosaic.ValueIdx Cert.ReferenceIdeal.Read

instance : Subsingleton Cert.Pre_finite_inputs.S_.Idx := ⟨fun a b => funext fun d => d.elim0⟩

/-- A comparison bit `a > b` that is set says `b < a`. -/
theorem lt_of_cmp_ogt (a b : EReal) (h : Ideal.cmp .ogt a b = 1#1) : b < a := by
  by_contra hn
  have h0 : Ideal.cmp .ogt a b = 0#1 := by
    unfold Ideal.cmp
    dsimp only
    rw [decide_eq_false hn]
    rfl
  rw [h0] at h
  exact absurd h (by decide)

/-- The precondition gives every node a positive weighted degree. -/
theorem degPos_of_pre (a0 : FVec Ideal Cert.Pre_finite_inputs.S50000x128 .f32) (a1 : IVec Cert.Pre_finite_inputs.S2x600000 32)
    (a2 : FVec Ideal Cert.Pre_finite_inputs.S600000 .f32) (a3 : FVec Ideal Cert.Pre_finite_inputs.S128x128 .f32)
    (a4 : FVec Ideal Cert.Pre_finite_inputs.S128 .f32)
    (h : Cert.Pre_finite_inputs.fn (F := Ideal) a0 a1 a2 a3 a4 = fun _ => 1#1) : Cert.Bridge.DegPos a1 a2 := by
  have h0 := congrFun h ix0
  dsimp only [Cert.Pre_finite_inputs.fn, Cert.Pre_finite_inputs.fn_part1] at h0
  obtain ⟨-, h30⟩ := IntOp.andi_eq_one.mp h0
  intro v
  have hv := Host.reduce_andi_all _ _ _ _ ix0 h30 v
  rw [cmpf_apply] at hv
  have hY : broadcastInDim Cert.Pre_finite_inputs.S50000 ![] Cert.Pre_finite_inputs.Facts.bcast_S_S50000
      (constant (F := Ideal) Cert.Pre_finite_inputs.S_ .f32 0x00000000#32) v = (0 : EReal) := Ideal.ofBits_zero_f32
  rw [hY] at hv
  exact lt_of_cmp_ogt (val_main_v11 (F := Ideal) a1 a2 v) 0 hv

end Cert.PreDegree

end
-- ==== Proof.lean ====
/-
  A graph-convolution layer: the kernel's row-blocked linear epilogue against the reference, at the extended reals.

  With `src`, `tgt` the edge endpoints followed by a self loop per node and `w` the edge weights followed by ones, both
  programs form the weighted degree `deg` (`w` scatter-added over `src`). The reference normalises each message
  `x[src]` by `w * dinv[src] * dinv[tgt]` with `dinv = 1 / sqrt deg`, adds the messages up over `tgt` and applies
  `· @ W.T + b`. The kernel guards `dinv` by `deg > 0`, normalises each message by `w * dinv[src]` only, adds them up,
  and a launch over ten blocks of 5000 rows multiplies row `v` by `dinv v` before the matrix product and the bias.

  The precondition asks, besides finite inputs, that every weighted degree be positive (where the reference's
  `1 / sqrt deg` is defined). Then: the guard never binds and each `dinv v` is a non-negative real; a message landing on
  row `v` has target `v`; a non-negative real factor distributes over the finite sum of extended reals a scatter-add is
  (no finiteness of the summands is needed); so the reference's aggregate is the kernel's with row `v` scaled by
  `dinv v` (`Cert.Bridge.agg_law`), and the two results are one whole-array layer (`Cert.Bridge.ref_eq`). On the
  kernel's side the ten blocks written back are the ten row blocks of that layer and cover the result array
  (`Cert.KernelIdeal.Hand.final`). The idealisation rewrote nothing, so `preserves` is `True`.
-/
import proofs.«128635_j50328426775032_2_alg».proof.Defs
import proofs.«128635_j50328426775032_2_alg».proof.Proof.Gen.Kernel
import proofs.«128635_j50328426775032_2_alg».proof.Proof.Gen.Kernel.Skeleton
import proofs.«128635_j50328426775032_2_alg».proof.Proof.Gen.Kernel.Launch
import proofs.«128635_j50328426775032_2_alg».proof.Proof.Gen.Kernel.Points
import proofs.«128635_j50328426775032_2_alg».proof.Proof.Gen.Kernel.Frame
import proofs.«128635_j50328426775032_2_alg».proof.Proof.Gen.KernelIdeal
import proofs.«128635_j50328426775032_2_alg».proof.Proof.Gen.KernelIdeal.Skeleton
import proofs.«128635_j50328426775032_2_alg».proof.Proof.Gen.KernelIdeal.Launch
import proofs.«128635_j50328426775032_2_alg».proof.Proof.Gen.KernelIdeal.Points
import proofs.«128635_j50328426775032_2_alg».proof.Proof.Gen.KernelIdeal.Frame
import proofs.«128635_j50328426775032_2_alg».proof.Proof.Gen.ReferenceIdeal
import proofs.«128635_j50328426775032_2_alg».proof.Proof.Gen.Pre_finite_inputs
import proofs.«128635_j50328426775032_2_alg».proof.Proof.Gen.KernelIdeal.Value
import proofs.«128635_j50328426775032_2_alg».proof.Proof.Gen.ReferenceIdeal.Run
import proofs.«128635_j50328426775032_2_alg».proof.Proof.Gen.ReferenceIdeal.Read
import Idealize.ShloMosaic.Adequacy
import Idealize.ShloMosaic.Init
import proofs.«128635_j50328426775032_2_alg».proof.Proof.KernelRun
import proofs.«128635_j50328426775032_2_alg».proof.Proof.Bridge
import proofs.«128635_j50328426775032_2_alg».proof.Proof.PreDegree

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the kernel's whole-array layer of the kernel's host arrays: the kernel by its blocks, the
    reference by the scatter law under the positive degrees the precondition gives. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [Cert.ReferenceIdeal.Read.val_main_v48_eq, e0, e1, e2, e3, e4]
  exact Cert.Bridge.ref_eq _ _ _ _ _ (Cert.PreDegree.degPos_of_pre _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
